-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S64x128 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S5000x64 : Shape := ⟨2, ![5000, 64]⟩
abbrev S128x64 : Shape := ⟨2, ![128, 64]⟩

abbrev nBuf : Space → Nat
  | .hbm => 76
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S1x128, .f32⟩
  | .hbm, ⟨14, _⟩ => ⟨S1x128, .f32⟩
  | .hbm, ⟨15, _⟩ => ⟨S100000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S100000x128, .f32⟩
  | .hbm, ⟨27, _⟩ => ⟨S800000x1, .i32⟩
  | .hbm, ⟨28, _⟩ => ⟨S100000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S100000, .f32⟩
  | .hbm, ⟨33, _⟩ => ⟨S800000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S100000x128, .f32⟩
  | .hbm, ⟨57, _⟩ => ⟨S800000x1, .i32⟩
  | .hbm, ⟨58, _⟩ => ⟨S100000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S100000, .f32⟩
  | .hbm, ⟨63, _⟩ => ⟨S800000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S1x128, .f32⟩
  | .hbm, ⟨74, _⟩ => ⟨S1x64, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S64x128, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S128x128, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S100000x128, .f32⟩
  | .hbm, ⟨20, _⟩ => ⟨S100000x128, .f32⟩
  | .hbm, ⟨21, _⟩ => ⟨S128x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S100000x128, .f32⟩
  | .hbm, ⟨37, _⟩ => ⟨S800000x1, .i32⟩
  | .hbm, ⟨38, _⟩ => ⟨S100000x128, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S100000, .f32⟩
  | .hbm, ⟨43, _⟩ => ⟨S800000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S128x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S128x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S100000x128, .f32⟩
  | .hbm, ⟨84, _⟩ => ⟨S800000x1, .i32⟩
  | .hbm, ⟨85, _⟩ => ⟨S100000x128, .f32⟩
  | .hbm, ⟨86, _⟩ => ⟨S_, .f32⟩
  | .hbm, ⟨87, _⟩ => ⟨S800000, .f32⟩
  | .hbm, ⟨88, _⟩ => ⟨S_, .f32⟩
  | .hbm, ⟨89, _⟩ => ⟨S100000, .f32⟩
  | .hbm, ⟨90, _⟩ => ⟨S800000x1, .i32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S128x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S_, .f32⟩
  | .hbm, ⟨105, _⟩ => ⟨S100000x128, .f32⟩
  | .hbm, ⟨106, _⟩ => ⟨S100000x128, .f32⟩
  | .hbm, ⟨107, _⟩ => ⟨S128x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .f32⟩
  | .hbm, ⟨115, _⟩ => ⟨S128x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call2_cst : Ref sig .tc := ⟨.hbm, 70, rfl⟩
abbrev main_call2_v0 : Ref sig .tc := ⟨.hbm, 71, rfl⟩
abbrev main_v47 : Ref sig .tc := ⟨.hbm, 72, rfl⟩
abbrev main_c_4 : Ref sig .tc := ⟨.hbm, 73, rfl⟩
abbrev main_v48 : Ref sig .tc := ⟨.hbm, 74, rfl⟩
abbrev main_v49 : Ref sig .tc := ⟨.hbm, 75, rfl⟩
abbrev main_c_5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call3_cst : Ref sig .tc := ⟨.hbm, 104, rfl⟩
abbrev main_call3_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_call4_cst : Ref sig .tc := ⟨.hbm, 112, rfl⟩
abbrev main_call4_v0 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result kept.

  @main is three pipelined regions among stretches of host operations. The run over these six segments ends with every
  unscoped buffer of a core at the contents of the last segment boundary (the fold `W6` of the launch memory through the
  host stretches and the regions' write-backs). Read at the result buffer this gives the result array by name; read at the
  argument buffers it gives them back as launched.
-/
import proofs.«161982_j53283364274285_1_alg».proof.Proof.KernelIdealFrameP

set_option maxRecDepth 16384

noncomputable section

namespace Cert.KernelIdeal.Result

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Result

end
-- ==== Proof.DenseRows.lean ====
/-
  The network's three dense stages, one row at a time.

  A dense layer sends a row `x` of length `K` to the row `q ↦ ∑ₖ x k · W q k + b q` (the product with the
  transposed weight matrix, plus the bias); a rectifier sends `y` to `q ↦ max (y q) 0`. Each of the three stages is a
  composition of these on ONE row. Applied to a matrix a stage acts on every row separately (`onRows`), so a stage of a
  band of rows is that band of rows of the stage: this is why computing the stage band by band gives the stage of the whole
  matrix. Everything is on the extended reals; the rectifier's zero is kept as the f32 word of +0.0 read there, the same word
  on both sides of the comparison, so it is never evaluated.
-/
import Idealize.ShloMosaic.PureOps.Ideal
import Idealize.ShloMosaic.Lib.ValueIdx

noncomputable section

namespace Cert.DenseRows

open Idealize.ShloMosaic Idealize.ShloMosaic.ValueIdx

/-- The f32 word of +0.0 as an extended real. -/
abbrev zero32 : EReal := Ideal.ofBits .f32 0x00000000#32

/-- One dense layer on one row: `q ↦ ∑ₖ x k · W q k + b q`. -/
def lin {K N : ℕ} (W : Fin N → Fin K → EReal) (b : Fin N → EReal) (x : Fin K → EReal) : Fin N → EReal :=
  fun q => (∑ k : Fin K, x k * W q k) + b q

/-- The rectifier on one row. -/
def relu {N : ℕ} (y : Fin N → EReal) : Fin N → EReal := fun q => max (y q) zero32

/-- First stage: layer 1, rectifier, layer 2. -/
def stageA (W1 : Fin 128 → Fin 128 → EReal) (b1 : Fin 128 → EReal) (W2 : Fin 128 → Fin 128 → EReal) (b2 : Fin 128 → EReal)
    (x : Fin 128 → EReal) : Fin 128 → EReal :=
  lin W2 b2 (relu (lin W1 b1 x))

/-- Second stage: layer 1, rectifier, layer 2, layer 3, rectifier. -/
def stageB (W1 : Fin 128 → Fin 128 → EReal) (b1 : Fin 128 → EReal) (W2 : Fin 128 → Fin 128 → EReal) (b2 : Fin 128 → EReal)
    (W3 : Fin 128 → Fin 128 → EReal) (b3 : Fin 128 → EReal) (x : Fin 128 → EReal) : Fin 128 → EReal :=
  relu (lin W3 b3 (lin W2 b2 (relu (lin W1 b1 x))))

/-- Third stage: layer 3, rectifier, first output layer, rectifier, second output layer (128 to 64). -/
def stageC (W3 : Fin 128 → Fin 128 → EReal) (b3 : Fin 128 → EReal) (Wo1 : Fin 128 → Fin 128 → EReal) (bo1 : Fin 128 → EReal)
    (Wo2 : Fin 64 → Fin 128 → EReal) (bo2 : Fin 64 → EReal) (x : Fin 128 → EReal) : Fin 64 → EReal :=
  lin Wo2 bo2 (relu (lin Wo1 bo1 (relu (lin W3 b3 x))))

/-- A matrix's entries as a function of its two coordinates. -/
def entries {R K : ℕ} (X : (⟨2, ![R, K]⟩ : Shape).Idx → EReal) : Fin R → Fin K → EReal := fun p k => X (ix2 p k)

/-- A vector's entries as a function of its coordinate. -/
def entries1 {N : ℕ} (b : (⟨1, ![N]⟩ : Shape).Idx → EReal) : Fin N → EReal := fun q => b (ix1 q)

/-- The entries of a one-row matrix, as a function of the column. -/
def rowEntries {N : ℕ} (b : (⟨2, ![1, N]⟩ : Shape).Idx → EReal) : Fin N → EReal := fun q => b (ix2 0 q)

/-- A row function applied to every row of a matrix. -/
def onRows {R K N : ℕ} (f : (Fin K → EReal) → Fin N → EReal) (X : (⟨2, ![R, K]⟩ : Shape).Idx → EReal) :
    (⟨2, ![R, N]⟩ : Shape).Idx → EReal :=
  fun j => f (entries X (j 0)) (j 1)

theorem onRows_apply {R K N : ℕ} (f : (Fin K → EReal) → Fin N → EReal) (X : (⟨2, ![R, K]⟩ : Shape).Idx → EReal)
    (p : Fin R) (q : Fin N) : onRows f X (ix2 p q) = f (entries X p) q := rfl

/-- Two arrays with the same entry at every pair of coordinates are equal. -/
theorem ext2 {R N : ℕ} {α : Type} (a b : (⟨2, ![R, N]⟩ : Shape).Idx → α)
    (h : ∀ (p : Fin R) (q : Fin N), a (ix2 p q) = b (ix2 p q)) : a = b := by
  funext j
  rw [eq_ix2 j]
  exact h _ _

end Cert.DenseRows

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.LibTransposedEntry.lean ====
/-
  A transposed matrix read at an entry.

  Transposing an `N × K` matrix by the permutation [1, 0] gives the `K × N` matrix whose entry (k, q) is the
  operand's entry (q, k). Any extents and any element type; imports only the library.
-/
import Idealize.ShloMosaic.Lib.Pipeline.Value
import Idealize.ShloMosaic.Lib.ValueIdx

namespace Idealize.ShloMosaic.TransposedEntry

open Idealize.ShloMosaic Idealize.ShloMosaic.ValueIdx

/-- `transpose [K, N] [1, 0] w` at (k, q) is `w` at (q, k). -/
theorem transposed_apply {α : Type} {N K : ℕ} (w : (⟨2, ![N, K]⟩ : Shape).Idx → α)
    (h : (⟨2, ![N, K]⟩ : Shape).Transposes [1, 0] ⟨2, ![K, N]⟩) (k : Fin K) (q : Fin N) :
    transpose (⟨2, ![K, N]⟩ : Shape) [1, 0] w h (ix2 k q) = w (ix2 q k) :=
  transpose_apply [1, 0] w h (ix2 k q) (ix2 q k) (fun b => by
    match b with
    | ⟨0, _⟩ => rfl
    | ⟨1, _⟩ => rfl)

end Idealize.ShloMosaic.TransposedEntry
-- ==== Proof.BodyRows.lean ====
/-
  What the three kernel bodies compute, entry by entry.

  Each body takes a band of 5000 rows, the weight matrices whole and the biases as one-row matrices. A layer of the body
  is the rows-by-columns product of the band with the TRANSPOSED weight matrix into a zero accumulator plus the bias row
  broadcast down the band; on the extended reals, where a change of float format is the identity, its entry (p, q) is the
  dense layer of row p of the band at q. Composing, each body's stored value at (p, q) is its stage applied to row p.
-/
import proofs.«161982_j53283364274285_1_alg».proof.Proof.Gen.KernelIdeal.Skeleton
import proofs.«161982_j53283364274285_1_alg».proof.Proof.DenseRows
import proofs.«161982_j53283364274285_1_alg».proof.Proof.LibMatmulRowsByCols
import proofs.«161982_j53283364274285_1_alg».proof.Proof.LibOneRowMatrix
import proofs.«161982_j53283364274285_1_alg».proof.Proof.LibTransposedEntry
import Idealize.ShloMosaic.Lib.Pipeline.Value
import Idealize.ShloMosaic.Lib.ValueIdx

noncomputable section

namespace Cert.KernelIdeal.BodyRows

open Cert.KernelIdeal Cert.KernelIdeal.Gen Cert.DenseRows
open Idealize.ShloMosaic Idealize.ShloMosaic.ValueIdx

/-- One layer of a body with 128 outputs, at (p, q): the dense layer of row p at q. -/
theorem layer128_apply {φ₁ φ₂ : FTy} (x : FVec Ideal S5000x128 φ₁) (w : FVec Ideal S128x128 φ₂) (b : Vec Ideal S1x128 .f32)
    (p : Fin 5000) (q : Fin 128) :
    addf (matmul dot_S5000x128_S128x128_S5000x128_1_0_0_1_n_n none x
        (transpose S128x128 [1, 0] w transposes_S128x128_p1_0_S128x128) (constant (F := Ideal) S5000x128 .f32 0x00000000#32))
      (broadcastTo S5000x128 (shapeCast S1x128 b shapeCasts_S1x128_S1x128) broadcasts_S1x128_S5000x128) (ix2 p q)
      = lin (entries w) (rowEntries b) (entries x p) q := by
  rw [addf_apply, shapeCast_self, OneRowMatrix.broadcast_row_apply,
    MatmulRowsByCols.matmul_zero_apply dot_S5000x128_S128x128_S5000x128_1_0_0_1_n_n rfl rfl (fun _ _ => rfl) (fun _ _ => rfl)
      (fun _ _ => rfl) (fun _ _ => rfl)]
  unfold lin entries rowEntries
  refine congrArg (· + b (ix2 0 q)) (Finset.sum_congr rfl fun k _ => ?_)
  rw [TransposedEntry.transposed_apply]

/-- The last layer (64 outputs), at (p, q): the dense layer of row p at q. -/
theorem layer64_apply {φ₁ φ₂ : FTy} (x : FVec Ideal S5000x128 φ₁) (w : FVec Ideal S64x128 φ₂) (b : Vec Ideal S1x64 .f32)
    (p : Fin 5000) (q : Fin 64) :
    addf (matmul dot_S5000x128_S128x64_S5000x64_1_0_0_1_n_n none x
        (transpose S128x64 [1, 0] w transposes_S64x128_p1_0_S128x64) (constant (F := Ideal) S5000x64 .f32 0x00000000#32))
      (broadcastTo S5000x64 (shapeCast S1x64 b shapeCasts_S1x64_S1x64) broadcasts_S1x64_S5000x64) (ix2 p q)
      = lin (entries w) (rowEntries b) (entries x p) q := by
  rw [addf_apply, shapeCast_self, OneRowMatrix.broadcast_row_apply,
    MatmulRowsByCols.matmul_zero_apply dot_S5000x128_S128x64_S5000x64_1_0_0_1_n_n rfl rfl (fun _ _ => rfl) (fun _ _ => rfl)
      (fun _ _ => rfl) (fun _ _ => rfl)]
  unfold lin entries rowEntries
  refine congrArg (· + b (ix2 0 q)) (Finset.sum_congr rfl fun k _ => ?_)
  rw [TransposedEntry.transposed_apply]

/-- A rectified layer, at (p, q). -/
theorem relu128_apply {φ₁ φ₂ : FTy} (x : FVec Ideal S5000x128 φ₁) (w : FVec Ideal S128x128 φ₂) (b : Vec Ideal S1x128 .f32)
    (p : Fin 5000) (q : Fin 128) :
    maximumf (addf (matmul dot_S5000x128_S128x128_S5000x128_1_0_0_1_n_n none x
        (transpose S128x128 [1, 0] w transposes_S128x128_p1_0_S128x128) (constant (F := Ideal) S5000x128 .f32 0x00000000#32))
      (broadcastTo S5000x128 (shapeCast S1x128 b shapeCasts_S1x128_S1x128) broadcasts_S1x128_S5000x128))
      (broadcast S5000x128 (Scalar.ofBits (F := Ideal) .f32 0x00000000#32)) (ix2 p q)
      = relu (lin (entries w) (rowEntries b) (entries x p)) q := by
  rw [maximumf_apply, layer128_apply]
  rfl

/-- The first body's stored value at (p, q): the first stage of row p at q. -/
theorem stageA_apply (x0 : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k0_pay1 (F := Ideal) x0 w1 b1 w2 b2 (ix2 p q)
      = stageA (entries w1) (rowEntries b1) (entries w2) (rowEntries b2) (entries x0 p) q := by
  unfold k0_pay1
  refine (layer128_apply _ _ _ p q).trans ?_
  exact congrArg (fun r => lin (entries w2) (rowEntries b2) r q)
    (funext fun k => relu128_apply (truncf .bf16 x0 bitsLt_bf16_f32) (truncf .bf16 w1 bitsLt_bf16_f32) b1 p k)

/-- The second body's stored value at (p, q): the second stage of row p at q. -/
theorem stageB_apply (x0 : Vec Ideal S5000x128 .f32) (w1 : Vec Ideal S128x128 .f32) (b1 : Vec Ideal S1x128 .f32)
    (w2 : Vec Ideal S128x128 .f32) (b2 : Vec Ideal S1x128 .f32) (w3 : Vec Ideal S128x128 .f32) (b3 : Vec Ideal S1x128 .f32)
    (p : Fin 5000) (q : Fin 128) :
    k1_pay1 (F := Ideal) x0 w1 b1 w2 b2 w3 b3 (ix2 p q)
      = stageB (entries w1) (rowEntries b1) (entries w2) (rowEntries b2) (entries w3) (rowEntries b3) (entries x0 p) q := by
  unfold k1_pay1
  refine (relu128_apply _ _ _ p q).trans ?_
  refine congrArg (fun r => relu (lin (entries w3) (rowEntries b3) r) q) (funext fun k => ?_)
  refine (layer128_apply _ _ _ p k).trans ?_
  refine congrArg (fun r => lin (entries w2) (rowEntries b2) r k) (funext fun k' => ?_)
  refine (relu128_apply _ _ _ p k').trans ?_
  rw [shapeCast_self]
  rfl

/-- The third body's stored value at (p, q): the third stage of row p at q. -/
theorem stageC_apply (x0 : Vec Ideal S5000x128 .f32) (w3 : Vec Ideal S128x128 .f32) (b3 : Vec Ideal S1x128 .f32)
    (wo1 : Vec Ideal S128x128 .f32) (bo1 : Vec Ideal S1x128 .f32) (wo2 : Vec Ideal S64x128 .f32) (bo2 : Vec Ideal S1x64 .f32)
    (p : Fin 5000) (q : Fin 64) :
    k2_pay1 (F := Ideal) x0 w3 b3 wo1 bo1 wo2 bo2 (ix2 p q)
      = stageC (entries w3) (rowEntries b3) (entries wo1) (rowEntries bo1) (entries wo2) (rowEntries bo2) (entries x0 p) q := by
  unfold k2_pay1
  refine (layer64_apply _ _ _ p q).trans ?_
  refine congrArg (fun r => lin (entries wo2) (rowEntries bo2) r q) (funext fun k => ?_)
  refine (relu128_apply _ _ _ p k).trans ?_
  refine congrArg (fun r => relu (lin (entries wo1) (rowEntries bo1) r) k) (funext fun k' => ?_)
  refine (relu128_apply _ _ _ p k').trans ?_
  rw [shapeCast_self]
  rfl

end Cert.KernelIdeal.BodyRows

end
-- ==== Proof.RegionA.lean ====
/-
  Region 0 of the idealized kernel: what its output array holds when the region is left.

  The region runs its body at 20 grid points; point t stages rows 5000·t … 5000·t + 4999 of the input array, the weight
  matrices whole and the biases as one-row matrices, and writes back the same band of rows of the output. The body's
  stored value at (p, q) is the first stage (layer 1, rectifier, layer 2) of row p of the band, so the band written
  back at t is rows 5000·t … of that stage applied to every row of the whole input; the 20 bands tile the output array,
  which therefore ends as the stage of every row of the input array — as a function of the buffer contents `V` the
  region is entered with.
-/
import proofs.«161982_j53283364274285_1_alg».proof.Proof.KernelIdealFrameP
import proofs.«161982_j53283364274285_1_alg».proof.Proof.BodyRows
import Idealize.ShloMosaic.Lib.Pipeline.Value

set_option maxRecDepth 16384

noncomputable section

namespace Cert.KernelIdeal.StageA

open Cert.KernelIdeal Cert.KernelIdeal.Gen Cert.KernelIdeal.GenP Cert.DenseRows Cert.KernelIdeal.BodyRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stage applied to every row of the region's input array, with the weights and biases the region finds. -/
def whole (c : Dev nD) : S100000x128.Idx → EReal :=
  onRows (R := 100000) (stageA (entries (R := 128) (K := 128) (V c main_arg3)) (rowEntries (N := 128) (V c main_v0)) (entries (R := 128) (K := 128) (V c main_arg5)) (rowEntries (N := 128) (V c main_v1))) (V c main_arg0)

/-- The printed index maps over the 20 grid points: the band windows sit at block (t, 0), every other window at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's stored value at (p, q) of the band is the stage of row r of the whole array at q, when row p of the band
    is row r of the array and the body's weights and biases are the arrays'. -/
theorem band (X : S100000x128.Idx → EReal) (Y1 : S128x128.Idx → EReal) (Y2 : S1x128.Idx → EReal) (Y3 : S128x128.Idx → EReal) (Y4 : S1x128.Idx → EReal)
    (x0 : Vec Ideal S5000x128 .f32) (y1 : Vec Ideal S128x128 .f32) (y2 : Vec Ideal S1x128 .f32) (y3 : Vec Ideal S128x128 .f32) (y4 : Vec Ideal S1x128 .f32)
    (p : Fin 5000) (q : Fin 128) (r : Fin 100000)
    (hx : ∀ k : Fin 128, x0 (ix2 p k) = X (ix2 r k)) (h1 : y1 = Y1) (h2 : y2 = Y2) (h3 : y3 = Y3) (h4 : y4 = Y4) :
    k0_pay1 (F := Ideal) x0 y1 y2 y3 y4 (ix2 p q)
      = onRows (R := 100000) (stageA (entries (R := 128) (K := 128) Y1) (rowEntries (N := 128) Y2) (entries (R := 128) (K := 128) Y3) (rowEntries (N := 128) Y4)) X (ix2 r q) := by
  subst h1 h2 h3 h4
  rw [stageA_apply, onRows_apply]
  exact congrArg (fun row => stageA (entries (R := 128) (K := 128) y1) (rowEntries (N := 128) y2) (entries (R := 128) (K := 128) y3) (rowEntries (N := 128) y4) row q) (funext hx)

/-- What point t writes back is band t of the stage of the whole input array. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e0a, e0b, e1a, e1b, e2a, e2b, e3a, e3b, e4a, e4b, e5a, e5b⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have hemb : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  have hx : ∀ k : Fin 128, (iblk0 V c 0 t : S5000x128.Idx → EReal) (ix2 p k)
      = V c main_arg0 (ix2 (⟨t.val * 5000 + p.val, hr⟩ : Fin 100000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : (iblk0 V c 1 t : S128x128.Idx → EReal) = V c main_arg3 := by
    funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have h2 : (iblk0 V c 2 t : S1x128.Idx → EReal) = V c main_v0 := by
    funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  have h3 : (iblk0 V c 3 t : S128x128.Idx → EReal) = V c main_arg5 := by
    funext y
    show V c main_arg5 (((cfg0.win 3).blk t).view.emb y) = V c main_arg5 y
    refine congrArg (V c main_arg5) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : (iblk0 V c 4 t : S1x128.Idx → EReal) = V c main_v1 := by
    funext y
    show V c main_v1 (((cfg0.win 4).blk t).view.emb y) = V c main_v1 y
    refine congrArg (V c main_v1) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  show k0_pay1 (F := Ideal) (iblk0 V c 0 t) (iblk0 V c 1 t) (iblk0 V c 2 t) (iblk0 V c 3 t) (iblk0 V c 4 t) (ix2 p q)
    = whole V c (((cfg0.win 5).blk t).view.emb (ix2 p q))
  rw [hemb]
  exact band (V c main_arg0) (V c main_arg3) (V c main_v0) (V c main_arg5) (V c main_v1)
    (iblk0 V c 0 t) (iblk0 V c 1 t) (iblk0 V c 2 t) (iblk0 V c 3 t) (iblk0 V c 4 t) p q ⟨t.val * 5000 + p.val, hr⟩ hx h1 h2 h3 h4

/-- An index of the output array is in point t's band iff each coordinate is in the band's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2).slice (win0_5.rect t)).set ↔ _
  rw [View.set_slice_whole, Rect.mem_set_unit]
  exact Iff.rfl

/-- The 20 bands tile the output array: row i is in band i / 5000. -/
theorem cover (i : S100000x128.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  have hlt : (i 0).val / 5000 < cfg0.N := by omega
  obtain ⟨e0a, e0b, e1a, e1b, e2a, e2b, e3a, e3b, e4a, e4b, e5a, e5b⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e5a]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e5b]
    omega

/-- When the region is left its output array holds the stage of every row of its input array. -/
theorem final (c : Dev nD) : (dat0 V c).arrAt 5 cfg0.N = whole V c :=
  (dat0 V c).arrAt_eq_of_cover 5 (whole V c) (fun t _ => flushed_eq V c t) (cover)

end Cert.KernelIdeal.StageA

end
-- ==== Proof.RegionB.lean ====
/-
  Region 1 of the idealized kernel: what its output array holds when the region is left.

  The region runs its body at 20 grid points; point t stages rows 5000·t … 5000·t + 4999 of the input array, the weight
  matrices whole and the biases as one-row matrices, and writes back the same band of rows of the output. The body's
  stored value at (p, q) is the second stage (layer 1, rectifier, layer 2, layer 3, rectifier) of row p of the band, so the band written
  back at t is rows 5000·t … of that stage applied to every row of the whole input; the 20 bands tile the output array,
  which therefore ends as the stage of every row of the input array — as a function of the buffer contents `V` the
  region is entered with.
-/
import proofs.«161982_j53283364274285_1_alg».proof.Proof.KernelIdealFrameP
import proofs.«161982_j53283364274285_1_alg».proof.Proof.BodyRows
import Idealize.ShloMosaic.Lib.Pipeline.Value

set_option maxRecDepth 16384

noncomputable section

namespace Cert.KernelIdeal.StageB

open Cert.KernelIdeal Cert.KernelIdeal.Gen Cert.KernelIdeal.GenP Cert.DenseRows Cert.KernelIdeal.BodyRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stage applied to every row of the region's input array, with the weights and biases the region finds. -/
def whole (c : Dev nD) : S100000x128.Idx → EReal :=
  onRows (R := 100000) (stageB (entries (R := 128) (K := 128) (V c main_arg3)) (rowEntries (N := 128) (V c main_v23)) (entries (R := 128) (K := 128) (V c main_arg5)) (rowEntries (N := 128) (V c main_v24)) (entries (R := 128) (K := 128) (V c main_arg7)) (rowEntries (N := 128) (V c main_v25))) (V c main_v22)

/-- The printed index maps over the 20 grid points: the band windows sit at block (t, 0), every other window at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The body's stored value at (p, q) of the band is the stage of row r of the whole array at q, when row p of the band
    is row r of the array and the body's weights and biases are the arrays'. -/
theorem band (X : S100000x128.Idx → EReal) (Y1 : S128x128.Idx → EReal) (Y2 : S1x128.Idx → EReal) (Y3 : S128x128.Idx → EReal) (Y4 : S1x128.Idx → EReal) (Y5 : S128x128.Idx → EReal) (Y6 : S1x128.Idx → EReal)
    (x0 : Vec Ideal S5000x128 .f32) (y1 : Vec Ideal S128x128 .f32) (y2 : Vec Ideal S1x128 .f32) (y3 : Vec Ideal S128x128 .f32) (y4 : Vec Ideal S1x128 .f32) (y5 : Vec Ideal S128x128 .f32) (y6 : Vec Ideal S1x128 .f32)
    (p : Fin 5000) (q : Fin 128) (r : Fin 100000)
    (hx : ∀ k : Fin 128, x0 (ix2 p k) = X (ix2 r k)) (h1 : y1 = Y1) (h2 : y2 = Y2) (h3 : y3 = Y3) (h4 : y4 = Y4) (h5 : y5 = Y5) (h6 : y6 = Y6) :
    k1_pay1 (F := Ideal) x0 y1 y2 y3 y4 y5 y6 (ix2 p q)
      = onRows (R := 100000) (stageB (entries (R := 128) (K := 128) Y1) (rowEntries (N := 128) Y2) (entries (R := 128) (K := 128) Y3) (rowEntries (N := 128) Y4) (entries (R := 128) (K := 128) Y5) (rowEntries (N := 128) Y6)) X (ix2 r q) := by
  subst h1 h2 h3 h4 h5 h6
  rw [stageB_apply, onRows_apply]
  exact congrArg (fun row => stageB (entries (R := 128) (K := 128) y1) (rowEntries (N := 128) y2) (entries (R := 128) (K := 128) y3) (rowEntries (N := 128) y4) (entries (R := 128) (K := 128) y5) (rowEntries (N := 128) y6) row q) (funext hx)

/-- What point t writes back is band t of the stage of the whole input array. -/
theorem flushed_eq (c : Dev nD) (t : Fin cfg1.N) :
    (dat1 V c).flushed 7 t = ((cfg1.win 7).blk t).view.read (Elt Ideal) (whole V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  obtain ⟨e0a, e0b, e1a, e1b, e2a, e2b, e3a, e3b, e4a, e4b, e5a, e5b, e6a, e6b, e7a, e7b⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have hemb : ((cfg1.win 7).blk t).view.emb (ix2 p q) = ix2 (⟨t.val * 5000 + p.val, hr⟩ : Fin 100000) q := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  have hx : ∀ k : Fin 128, (iblk1 V c 0 t : S5000x128.Idx → EReal) (ix2 p k)
      = V c main_v22 (ix2 (⟨t.val * 5000 + p.val, hr⟩ : Fin 100000) k) := fun k => by
    show V c main_v22 (((cfg1.win 0).blk t).view.emb (ix2 p k)) = _
    refine congrArg (V c main_v22) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : (iblk1 V c 1 t : S128x128.Idx → EReal) = V c main_arg3 := by
    funext y
    show V c main_arg3 (((cfg1.win 1).blk t).view.emb y) = V c main_arg3 y
    refine congrArg (V c main_arg3) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have h2 : (iblk1 V c 2 t : S1x128.Idx → EReal) = V c main_v23 := by
    funext y
    show V c main_v23 (((cfg1.win 2).blk t).view.emb y) = V c main_v23 y
    refine congrArg (V c main_v23) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have h3 : (iblk1 V c 3 t : S128x128.Idx → EReal) = V c main_arg5 := by
    funext y
    show V c main_arg5 (((cfg1.win 3).blk t).view.emb y) = V c main_arg5 y
    refine congrArg (V c main_arg5) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : (iblk1 V c 4 t : S1x128.Idx → EReal) = V c main_v24 := by
    funext y
    show V c main_v24 (((cfg1.win 4).blk t).view.emb y) = V c main_v24 y
    refine congrArg (V c main_v24) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  have h5 : (iblk1 V c 5 t : S128x128.Idx → EReal) = V c main_arg7 := by
    funext y
    show V c main_arg7 (((cfg1.win 5).blk t).view.emb y) = V c main_arg7 y
    refine congrArg (V c main_arg7) (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  have h6 : (iblk1 V c 6 t : S1x128.Idx → EReal) = V c main_v25 := by
    funext y
    show V c main_v25 (((cfg1.win 6).blk t).view.emb y) = V c main_v25 y
    refine congrArg (V c main_v25) (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  show k1_pay1 (F := Ideal) (iblk1 V c 0 t) (iblk1 V c 1 t) (iblk1 V c 2 t) (iblk1 V c 3 t) (iblk1 V c 4 t) (iblk1 V c 5 t) (iblk1 V c 6 t) (ix2 p q)
    = whole V c (((cfg1.win 7).blk t).view.emb (ix2 p q))
  rw [hemb]
  exact band (V c main_v22) (V c main_arg3) (V c main_v23) (V c main_arg5) (V c main_v24) (V c main_arg7) (V c main_v25)
    (iblk1 V c 0 t) (iblk1 V c 1 t) (iblk1 V c 2 t) (iblk1 V c 3 t) (iblk1 V c 4 t) (iblk1 V c 5 t) (iblk1 V c 6 t) p q ⟨t.val * 5000 + p.val, hr⟩ hx h1 h2 h3 h4 h5 h6

/-- An index of the output array is in point t's band iff each coordinate is in the band's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v26).slice (win1_7.rect t)).set ↔ _
  rw [View.set_slice_whole, Rect.mem_set_unit]
  exact Iff.rfl

/-- The 20 bands tile the output array: row i is in band i / 5000. -/
theorem cover (i : S100000x128.Idx) : ∃ t : Fin cfg1.N, (cfg1.win 7).flush t = true ∧ i ∈ ((cfg1.win 7).blk t).view.set := by
  have hN : cfg1.N = 20 := N_1
  have hi0 : (i 0).val < 100000 := (i 0).isLt
  have hi1 : (i 1).val < 128 := (i 1).isLt
  have hlt : (i 0).val / 5000 < cfg1.N := by omega
  obtain ⟨e0a, e0b, e1a, e1b, e2a, e2b, e3a, e3b, e4a, e4b, e5a, e5b, e6a, e6b, e7a, e7b⟩ := idx_facts ⟨(i 0).val / 5000, hlt⟩
  refine ⟨⟨(i 0).val / 5000, hlt⟩, flush1_7 _, ?_⟩
  rw [mem_blk]
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e7a]
    show (i 0).val / 5000 * 5000 ≤ (i 0).val ∧ (i 0).val < (i 0).val / 5000 * 5000 + 5000
    omega
  | ⟨1, _⟩ =>
    show win1_7.index ⟨(i 0).val / 5000, hlt⟩ (1 : Fin 2) * 128 ≤ (i 1).val
      ∧ (i 1).val < win1_7.index ⟨(i 0).val / 5000, hlt⟩ (1 : Fin 2) * 128 + 128
    rw [e7b]
    omega

/-- When the region is left its output array holds the stage of every row of its input array. -/
theorem final (c : Dev nD) : (dat1 V c).arrAt 7 cfg1.N = whole V c :=
  (dat1 V c).arrAt_eq_of_cover 7 (whole V c) (fun t _ => flushed_eq V c t) (cover)

end Cert.KernelIdeal.StageB

end
-- ==== Proof.RegionC.lean ====
/-
  Region 2 of the idealized kernel: what its output array holds when the region is left.

  The region runs its body at 20 grid points; point t stages rows 5000·t … 5000·t + 4999 of the input array, the weight
  matrices whole and the biases as one-row matrices, and writes back the same band of rows of the output. The body's
  stored value at (p, q) is the third stage (layer 3, rectifier, output layer 1, rectifier, output layer 2) of row p of the band, so the band written
  back at t is rows 5000·t … of that stage applied to every row of the whole input; the 20 bands tile the output array,
  which therefore ends as the stage of every row of the input array — as a function of the buffer contents `V` the
  region is entered with.
-/
import proofs.«161982_j53283364274285_1_alg».proof.Proof.KernelIdealFrameP
import proofs.«161982_j53283364274285_1_alg».proof.Proof.BodyRows
import Idealize.ShloMosaic.Lib.Pipeline.Value

set_option maxRecDepth 16384

noncomputable section

namespace Cert.KernelIdeal.StageC

open Cert.KernelIdeal Cert.KernelIdeal.Gen Cert.KernelIdeal.GenP Cert.DenseRows Cert.KernelIdeal.BodyRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stage applied to every row of the region's input array, with the weights and biases the region finds. -/
def whole (c : Dev nD) : S100000x64.Idx → EReal :=
  onRows (R := 100000) (stageC (entries (R := 128) (K := 128) (V c main_arg7)) (rowEntries (N := 128) (V c main_v47)) (entries (R := 128) (K := 128) (V c main_arg9)) (rowEntries (N := 128) (V c main_v48)) (entries (R := 64) (K := 128) (V c main_arg11)) (rowEntries (N := 64) (V c main_v49))) (V c main_v46)

/-- The printed index maps over the 20 grid points: the band windows sit at block (t, 0), every other window at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The body's stored value at (p, q) of the band is the stage of row r of the whole array at q, when row p of the band
    is row r of the array and the body's weights and biases are the arrays'. -/
theorem band (X : S100000x128.Idx → EReal) (Y1 : S128x128.Idx → EReal) (Y2 : S1x128.Idx → EReal) (Y3 : S128x128.Idx → EReal) (Y4 : S1x128.Idx → EReal) (Y5 : S64x128.Idx → EReal) (Y6 : S1x64.Idx → EReal)
    (x0 : Vec Ideal S5000x128 .f32) (y1 : Vec Ideal S128x128 .f32) (y2 : Vec Ideal S1x128 .f32) (y3 : Vec Ideal S128x128 .f32) (y4 : Vec Ideal S1x128 .f32) (y5 : Vec Ideal S64x128 .f32) (y6 : Vec Ideal S1x64 .f32)
    (p : Fin 5000) (q : Fin 64) (r : Fin 100000)
    (hx : ∀ k : Fin 128, x0 (ix2 p k) = X (ix2 r k)) (h1 : y1 = Y1) (h2 : y2 = Y2) (h3 : y3 = Y3) (h4 : y4 = Y4) (h5 : y5 = Y5) (h6 : y6 = Y6) :
    k2_pay1 (F := Ideal) x0 y1 y2 y3 y4 y5 y6 (ix2 p q)
      = onRows (R := 100000) (stageC (entries (R := 128) (K := 128) Y1) (rowEntries (N := 128) Y2) (entries (R := 128) (K := 128) Y3) (rowEntries (N := 128) Y4) (entries (R := 64) (K := 128) Y5) (rowEntries (N := 64) Y6)) X (ix2 r q) := by
  subst h1 h2 h3 h4 h5 h6
  rw [stageC_apply, onRows_apply]
  exact congrArg (fun row => stageC (entries (R := 128) (K := 128) y1) (rowEntries (N := 128) y2) (entries (R := 128) (K := 128) y3) (rowEntries (N := 128) y4) (entries (R := 64) (K := 128) y5) (rowEntries (N := 64) y6) row q) (funext hx)

/-- What point t writes back is band t of the stage of the whole input array. -/
theorem flushed_eq (c : Dev nD) (t : Fin cfg2.N) :
    (dat2 V c).flushed 7 t = ((cfg2.win 7).blk t).view.read (Elt Ideal) (whole V c) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz, View.ld_unit_zero (S := S64x128) hz, View.ld_unit_zero (S := S1x64) hz, View.ld_unit_zero (S := S5000x64) hz]
  obtain ⟨e0a, e0b, e1a, e1b, e2a, e2b, e3a, e3b, e4a, e4b, e5a, e5b, e6a, e6b, e7a, e7b⟩ := idx_facts t
  have ht : t.val < 20 := lt_of_lt_of_eq t.isLt N_2
  funext j
  obtain ⟨p, q, rfl⟩ : ∃ (p : Fin 5000) (q : Fin 64), j = ix2 p q := ⟨j 0, j 1, eq_ix2 j⟩
  have hp : p.val < 5000 := p.isLt
  have hr : t.val * 5000 + p.val < 100000 := by omega
  have hemb : ((cfg2.win 7).blk t).view.emb (ix2 p q) = ix2 (⟨t.val * 5000 + p.val, hr⟩ : Fin 100000) q := by
    funext a; apply Fin.ext
    match a with
    | ⟨0, _⟩ => show win2_7.index t (0 : Fin 2) * 5000 + 1 * p.val = t.val * 5000 + p.val; omega
    | ⟨1, _⟩ => show win2_7.index t (1 : Fin 2) * 64 + 1 * q.val = q.val; omega
  have hx : ∀ k : Fin 128, (iblk2 V c 0 t : S5000x128.Idx → EReal) (ix2 p k)
      = V c main_v46 (ix2 (⟨t.val * 5000 + p.val, hr⟩ : Fin 100000) k) := fun k => by
    show V c main_v46 (((cfg2.win 0).blk t).view.emb (ix2 p k)) = _
    refine congrArg (V c main_v46) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : (iblk2 V c 1 t : S128x128.Idx → EReal) = V c main_arg7 := by
    funext y
    show V c main_arg7 (((cfg2.win 1).blk t).view.emb y) = V c main_arg7 y
    refine congrArg (V c main_arg7) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  have h2 : (iblk2 V c 2 t : S1x128.Idx → EReal) = V c main_v47 := by
    funext y
    show V c main_v47 (((cfg2.win 2).blk t).view.emb y) = V c main_v47 y
    refine congrArg (V c main_v47) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  have h3 : (iblk2 V c 3 t : S128x128.Idx → EReal) = V c main_arg9 := by
    funext y
    show V c main_arg9 (((cfg2.win 3).blk t).view.emb y) = V c main_arg9 y
    refine congrArg (V c main_arg9) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have h4 : (iblk2 V c 4 t : S1x128.Idx → EReal) = V c main_v48 := by
    funext y
    show V c main_v48 (((cfg2.win 4).blk t).view.emb y) = V c main_v48 y
    refine congrArg (V c main_v48) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  have h5 : (iblk2 V c 5 t : S64x128.Idx → EReal) = V c main_arg11 := by
    funext y
    show V c main_arg11 (((cfg2.win 5).blk t).view.emb y) = V c main_arg11 y
    refine congrArg (V c main_arg11) (funext fun a => Fin.ext ?_)
    match a with
    | ⟨0, _⟩ => show win2_5.index t (0 : Fin 2) * 64 + 1 * (y 0).val = (y 0).val; omega
    | ⟨1, _⟩ => show win2_5.index t (1 : Fin 2) * 128 + 1 * (y 1).val = (y 1).val; omega
  have h6 : (iblk2 V c 6 t : S1x64.Idx → EReal) = V c main_v49 := by
    funext y
    show V c main_v49 (((cfg2.win 6).blk t).view.emb y) = V c main_v49 y
    refine congrArg (V c main_v49) (funext fun a => Fin.ext ?_)
    match a with
    | ⟨0, _⟩ => show win2_6.index t (0 : Fin 2) * 1 + 1 * (y 0).val = (y 0).val; omega
    | ⟨1, _⟩ => show win2_6.index t (1 : Fin 2) * 64 + 1 * (y 1).val = (y 1).val; omega
  show k2_pay1 (F := Ideal) (iblk2 V c 0 t) (iblk2 V c 1 t) (iblk2 V c 2 t) (iblk2 V c 3 t) (iblk2 V c 4 t) (iblk2 V c 5 t) (iblk2 V c 6 t) (ix2 p q)
    = whole V c (((cfg2.win 7).blk t).view.emb (ix2 p q))
  rw [hemb]
  exact band (V c main_v46) (V c main_arg7) (V c main_v47) (V c main_arg9) (V c main_v48) (V c main_arg11) (V c main_v49)
    (iblk2 V c 0 t) (iblk2 V c 1 t) (iblk2 V c 2 t) (iblk2 V c 3 t) (iblk2 V c 4 t) (iblk2 V c 5 t) (iblk2 V c 6 t) p q ⟨t.val * 5000 + p.val, hr⟩ hx h1 h2 h3 h4 h5 h6

/-- An index of the output array is in point t's band iff each coordinate is in the band's range on its axis. -/
theorem mem_blk (t : Fin cfg2.N) (i : S100000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v50).slice (win2_7.rect t)).set ↔ _
  rw [View.set_slice_whole, Rect.mem_set_unit]
  exact Iff.rfl

/-- The 20 bands tile the output array: row i is in band i / 5000. -/
theorem cover (i : S100000x64.Idx) : ∃ t : Fin cfg2.N, (cfg2.win 7).flush t = true ∧ i ∈ ((cfg2.win 7).blk t).view.set := by
  have hN : cfg2.N = 20 := N_2
  have hi0 : (i 0).val < 100000 := (i 0).isLt
  have hi1 : (i 1).val < 64 := (i 1).isLt
  have hlt : (i 0).val / 5000 < cfg2.N := by omega
  obtain ⟨e0a, e0b, e1a, e1b, e2a, e2b, e3a, e3b, e4a, e4b, e5a, e5b, e6a, e6b, e7a, e7b⟩ := idx_facts ⟨(i 0).val / 5000, hlt⟩
  refine ⟨⟨(i 0).val / 5000, hlt⟩, flush2_7 _, ?_⟩
  rw [mem_blk]
  intro a
  match a with
  | ⟨0, _⟩ =>
    show win2_7.index ⟨(i 0).val / 5000, hlt⟩ (0 : Fin 2) * 5000 ≤ (i 0).val
      ∧ (i 0).val < win2_7.index ⟨(i 0).val / 5000, hlt⟩ (0 : Fin 2) * 5000 + 5000
    rw [e7a]
    show (i 0).val / 5000 * 5000 ≤ (i 0).val ∧ (i 0).val < (i 0).val / 5000 * 5000 + 5000
    omega
  | ⟨1, _⟩ =>
    show win2_7.index ⟨(i 0).val / 5000, hlt⟩ (1 : Fin 2) * 64 ≤ (i 1).val
      ∧ (i 1).val < win2_7.index ⟨(i 0).val / 5000, hlt⟩ (1 : Fin 2) * 64 + 64
    rw [e7b]
    omega

/-- When the region is left its output array holds the stage of every row of its input array. -/
theorem final (c : Dev nD) : (dat2 V c).arrAt 7 cfg2.N = whole V c :=
  (dat2 V c).arrAt_eq_of_cover 7 (whole V c) (fun t _ => flushed_eq V c t) (cover)

end Cert.KernelIdeal.StageC

end
-- ==== Proof.MeanAgg.lean ====
/-
  The mean aggregation over incoming edges, as one function.

  For node features `h` (100000 × 128), edge sources `src` and destinations `dst` (800000 each) both programs compute, with
  the same host operations in the same order, `h + (Σ over the edges into a node of h[src]) / max(indegree, 1)`: the
  source indices are wrapped when negative and gathered, the gathered rows and a vector of ones are scatter-added by
  destination into zeros, the count is clamped below at one and broadcast along the features, and the quotient is added
  to `h`. The two programs differ only in the names of the dimension records and layout witnesses their operations carry;
  these are the fields of `Dims`. The comparison of the programs never looks inside this function: it is applied to
  equal arguments on both sides.
-/
import Idealize.ShloMosaic.PureOps.Ideal

noncomputable section

namespace Cert.MeanAgg

open Idealize.ShloMosaic

abbrev Nodes : Shape := ⟨2, ![100000, 128]⟩
abbrev Edges : Shape := ⟨1, ![800000]⟩
abbrev EdgeCol : Shape := ⟨2, ![800000, 1]⟩
abbrev EdgeRows : Shape := ⟨2, ![800000, 128]⟩
abbrev Count : Shape := ⟨1, ![100000]⟩
abbrev CountCol : Shape := ⟨2, ![100000, 1]⟩
abbrev Scalar0 : Shape := ⟨0, ![]⟩

/-- The dimension records and layout witnesses the aggregation's operations carry. -/
structure Dims where
  gather : GatherDims Nodes EdgeCol EdgeRows
  scatterRows : ScatterDims Nodes EdgeCol EdgeRows
  scatterOnes : ScatterDims Count EdgeCol Edges
  toEdges : Scalar0.BroadcastsInDim Edges ![]
  toEdgeCol : Edges.BroadcastsInDim EdgeCol ![0]
  toNodes : Scalar0.BroadcastsInDim Nodes ![]
  toCount : Scalar0.BroadcastsInDim Count ![]
  toCountCol : Count.BroadcastsInDim CountCol ![0]
  alongFeatures : CountCol.BroadcastsInDim Nodes ![0, 1]

/-- `h` plus the mean of `h` over the sources of the edges into each node (zero for a node with no incoming edge). -/
def meanAgg (D : Dims) (h : FVec Ideal Nodes .f32) (src dst : IVec Edges 32) : FVec Ideal Nodes .f32 :=
  addf h (Host.divf
    (Host.scatterAdd D.scatterRows (broadcastInDim Nodes ![] D.toNodes (constant (F := Ideal) Scalar0 .f32 0x00000000#32))
      (broadcastInDim EdgeCol ![0] D.toEdgeCol dst)
      (Host.gather D.gather h (broadcastInDim EdgeCol ![0] D.toEdgeCol
        (select (cmpi .slt src (broadcastInDim Edges ![] D.toEdges (constantI Scalar0 32 0#32)))
          (addi src (broadcastInDim Edges ![] D.toEdges (constantI Scalar0 32 100000#32))) src))))
    (broadcastInDim Nodes ![0, 1] D.alongFeatures (broadcastInDim CountCol ![0] D.toCountCol
      (maximumf
        (Host.scatterAdd D.scatterOnes (broadcastInDim Count ![] D.toCount (constant (F := Ideal) Scalar0 .f32 0x00000000#32))
          (broadcastInDim EdgeCol ![0] D.toEdgeCol dst)
          (broadcastInDim Edges ![] D.toEdges (constant (F := Ideal) Scalar0 .f32 0x3F800000#32)))
        (broadcastInDim Count ![] D.toCount (constant (F := Ideal) Scalar0 .f32 0x3F800000#32))))))

end Cert.MeanAgg

end
-- ==== Proof.Network.lean ====
/-
  The whole network as one function of its thirteen arguments.

  First stage on every row of `x`; mean aggregation; second stage on every row; mean aggregation; third stage on every
  row. Weight matrices enter through their entries `W q k`, biases through their entries `b q`.
-/
import proofs.«161982_j53283364274285_1_alg».proof.Proof.DenseRows
import proofs.«161982_j53283364274285_1_alg».proof.Proof.MeanAgg

noncomputable section

namespace Cert.Network

open Idealize.ShloMosaic Cert.DenseRows Cert.MeanAgg

/-- The network's result, a 100000 × 64 array. -/
def network (D : Dims) (x : FVec Ideal Nodes .f32) (src dst : IVec Edges 32)
    (W1 : Fin 128 → Fin 128 → EReal) (b1 : Fin 128 → EReal) (W2 : Fin 128 → Fin 128 → EReal) (b2 : Fin 128 → EReal)
    (W3 : Fin 128 → Fin 128 → EReal) (b3 : Fin 128 → EReal) (Wo1 : Fin 128 → Fin 128 → EReal) (bo1 : Fin 128 → EReal)
    (Wo2 : Fin 64 → Fin 128 → EReal) (bo2 : Fin 64 → EReal) : (⟨2, ![100000, 64]⟩ : Shape).Idx → EReal :=
  onRows (R := 100000) (stageC W3 b3 Wo1 bo1 Wo2 bo2)
    (meanAgg D (onRows (R := 100000) (stageB W1 b1 W2 b2 W3 b3)
      (meanAgg D (onRows (R := 100000) (stageA W1 b1 W2 b2) x) src dst)) src dst)

end Cert.Network

end
-- ==== Proof.KernelNetwork.lean ====
/-
  The idealized kernel's result is the network.

  The last segment boundary's contents at the result buffer are what region 2 leaves: the third stage of every row of
  its input array. That input is what the host stretch before it computes from region 1's output — the mean
  aggregation —, region 1's output is the second stage of every row of ITS input, and so on back to the arguments. Between
  the regions every argument array keeps its launch contents (no host operation and no region writes one), and each
  bias reaches its region reshaped to a one-row matrix, whose entry (0, q) is the bias at q.
-/
import proofs.«161982_j53283364274285_1_alg».proof.Proof.KernelRun
import proofs.«161982_j53283364274285_1_alg».proof.Proof.RegionA
import proofs.«161982_j53283364274285_1_alg».proof.Proof.RegionB
import proofs.«161982_j53283364274285_1_alg».proof.Proof.RegionC
import proofs.«161982_j53283364274285_1_alg».proof.Proof.Network
import proofs.«161982_j53283364274285_1_alg».proof.Proof.LibOneRowMatrix
import Idealize.ShloMosaic.Lib.StableHlo.Run

set_option maxRecDepth 16384

noncomputable section

namespace Cert.KernelIdeal.Whole

open Cert.KernelIdeal Cert.KernelIdeal.Gen Cert.KernelIdeal.GenP Cert.DenseRows Cert.MeanAgg Cert.Network
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The kernel's dimension records and layout witnesses for the aggregation. -/
def dims : Dims :=
  ⟨gather_S100000x128_S800000x1_S800000x128_1_0_n_n_0_1_1128, scatter_S100000x128_S800000x1_S800000x128_1_0_0_1,
    scatter_S100000_S800000x1_S800000_n_0_0_1, bcast_S_S800000, bcast_S800000_S800000x1_0, bcast_S_S100000x128, bcast_S_S100000,
    bcast_S100000_S100000x1_0, bcast_S100000x1_S100000x128_0_1⟩

/-! ## Every argument array keeps its launch contents up to each boundary -/

theorem at1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem at1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
theorem at1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem at1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem at1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem at1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
theorem at1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
theorem at1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
theorem at1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
theorem at1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl
theorem at1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl
theorem at1_arg11 (c : Dev nD) : W1 m ρ c (Proc.devRef .tc main_arg11) = m ((c : Thread nD τ).loc main_arg11) :=
  calc W1 m ρ c (Proc.devRef .tc main_arg11)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl
theorem at1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl
theorem at2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := at1_arg0 m ρ c
theorem at2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = m ((c : Thread nD τ).loc main_arg1) := at1_arg1 m ρ c
theorem at2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := at1_arg2 m ρ c
theorem at2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 1).trans (((dat0 (V1 m ρ) c).arrAt_in 1 rfl _).trans (A_eq0 (V1 m ρ) c 1))
    _ = m ((c : Thread nD τ).loc main_arg3) := at1_arg3 m ρ c
theorem at2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := at1_arg4 m ρ c
theorem at2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := (W2_arr m ρ c 3).trans (((dat0 (V1 m ρ) c).arrAt_in 3 rfl _).trans (A_eq0 (V1 m ρ) c 3))
    _ = m ((c : Thread nD τ).loc main_arg5) := at1_arg5 m ρ c
theorem at2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = m ((c : Thread nD τ).loc main_arg6) := at1_arg6 m ρ c
theorem at2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = m ((c : Thread nD τ).loc main_arg7) := at1_arg7 m ρ c
theorem at2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = m ((c : Thread nD τ).loc main_arg8) := at1_arg8 m ρ c
theorem at2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = m ((c : Thread nD τ).loc main_arg9) := at1_arg9 m ρ c
theorem at2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = m ((c : Thread nD τ).loc main_arg10) := at1_arg10 m ρ c
theorem at2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = m ((c : Thread nD τ).loc main_arg11) := at1_arg11 m ρ c
theorem at2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = m ((c : Thread nD τ).loc main_arg12) := at1_arg12 m ρ c
theorem at3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := at2_arg1 m ρ c
theorem at3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := at2_arg2 m ρ c
theorem at3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := at2_arg3 m ρ c
theorem at3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := at2_arg5 m ρ c
theorem at3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := at2_arg7 m ρ c
theorem at3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := at2_arg8 m ρ c
theorem at3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := at2_arg9 m ρ c
theorem at3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := at2_arg10 m ρ c
theorem at3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := at2_arg11 m ρ c
theorem at3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := at2_arg12 m ρ c
theorem at4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = m ((c : Thread nD τ).loc main_arg1) := at3_arg1 m ρ c
theorem at4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := at3_arg2 m ρ c
theorem at4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = m ((c : Thread nD τ).loc main_arg7) := at3_arg7 m ρ c
theorem at4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = m ((c : Thread nD τ).loc main_arg8) := at3_arg8 m ρ c
theorem at4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = m ((c : Thread nD τ).loc main_arg9) := at3_arg9 m ρ c
theorem at4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = m ((c : Thread nD τ).loc main_arg10) := at3_arg10 m ρ c
theorem at4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = m ((c : Thread nD τ).loc main_arg11) := at3_arg11 m ρ c
theorem at4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = m ((c : Thread nD τ).loc main_arg12) := at3_arg12 m ρ c
theorem at5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := at4_arg7 m ρ c
theorem at5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := at4_arg9 m ρ c
theorem at5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := at4_arg11 m ρ c

/-! ## The biases as one-row matrices, and the weights, as each region finds them -/

/-- `main_v0` when its region is entered: bias 4 as a one-row matrix. -/
theorem cast_v0 (c : Dev nD) : V1 m ρ c main_v0 = shapeCast S1x128 (m ((c : Thread nD τ).loc main_arg4)) shapeCasts_S128_S1x128 := by
  show StableHlo.after hostOps0 (W0 m ρ c) (Proc.devRef .tc main_v0) = _
  after_results_simp
  rfl
theorem row_v0 (c : Dev nD) : rowEntries (N := 128) (V1 m ρ c main_v0) = entries1 (m ((c : Thread nD τ).loc main_arg4)) :=
  funext fun q => (congrFun (cast_v0 m ρ c) (ix2 0 q)).trans (OneRowMatrix.row_of_vector _ shapeCasts_S128_S1x128 q)
/-- `main_v1` when its region is entered: bias 6 as a one-row matrix. -/
theorem cast_v1 (c : Dev nD) : V1 m ρ c main_v1 = shapeCast S1x128 (m ((c : Thread nD τ).loc main_arg6)) shapeCasts_S128_S1x128 := by
  show StableHlo.after hostOps0 (W0 m ρ c) (Proc.devRef .tc main_v1) = _
  after_results_simp
  rfl
theorem row_v1 (c : Dev nD) : rowEntries (N := 128) (V1 m ρ c main_v1) = entries1 (m ((c : Thread nD τ).loc main_arg6)) :=
  funext fun q => (congrFun (cast_v1 m ρ c) (ix2 0 q)).trans (OneRowMatrix.row_of_vector _ shapeCasts_S128_S1x128 q)
/-- `main_v23` when its region is entered: bias 4 as a one-row matrix. -/
theorem cast_v23 (c : Dev nD) : V3 m ρ c main_v23 = shapeCast S1x128 (m ((c : Thread nD τ).loc main_arg4)) shapeCasts_S128_S1x128 := by
  show StableHlo.after hostOps1 (W2 m ρ c) (Proc.devRef .tc main_v23) = _
  after_results_simp
  rw [at2_arg4 m ρ c]
  rfl
theorem row_v23 (c : Dev nD) : rowEntries (N := 128) (V3 m ρ c main_v23) = entries1 (m ((c : Thread nD τ).loc main_arg4)) :=
  funext fun q => (congrFun (cast_v23 m ρ c) (ix2 0 q)).trans (OneRowMatrix.row_of_vector _ shapeCasts_S128_S1x128 q)
/-- `main_v24` when its region is entered: bias 6 as a one-row matrix. -/
theorem cast_v24 (c : Dev nD) : V3 m ρ c main_v24 = shapeCast S1x128 (m ((c : Thread nD τ).loc main_arg6)) shapeCasts_S128_S1x128 := by
  show StableHlo.after hostOps1 (W2 m ρ c) (Proc.devRef .tc main_v24) = _
  after_results_simp
  rw [at2_arg6 m ρ c]
  rfl
theorem row_v24 (c : Dev nD) : rowEntries (N := 128) (V3 m ρ c main_v24) = entries1 (m ((c : Thread nD τ).loc main_arg6)) :=
  funext fun q => (congrFun (cast_v24 m ρ c) (ix2 0 q)).trans (OneRowMatrix.row_of_vector _ shapeCasts_S128_S1x128 q)
/-- `main_v25` when its region is entered: bias 8 as a one-row matrix. -/
theorem cast_v25 (c : Dev nD) : V3 m ρ c main_v25 = shapeCast S1x128 (m ((c : Thread nD τ).loc main_arg8)) shapeCasts_S128_S1x128 := by
  show StableHlo.after hostOps1 (W2 m ρ c) (Proc.devRef .tc main_v25) = _
  after_results_simp
  rw [at2_arg8 m ρ c]
  rfl
theorem row_v25 (c : Dev nD) : rowEntries (N := 128) (V3 m ρ c main_v25) = entries1 (m ((c : Thread nD τ).loc main_arg8)) :=
  funext fun q => (congrFun (cast_v25 m ρ c) (ix2 0 q)).trans (OneRowMatrix.row_of_vector _ shapeCasts_S128_S1x128 q)
/-- `main_v47` when its region is entered: bias 8 as a one-row matrix. -/
theorem cast_v47 (c : Dev nD) : V5 m ρ c main_v47 = shapeCast S1x128 (m ((c : Thread nD τ).loc main_arg8)) shapeCasts_S128_S1x128 := by
  show StableHlo.after hostOps2 (W4 m ρ c) (Proc.devRef .tc main_v47) = _
  after_results_simp
  rw [at4_arg8 m ρ c]
  rfl
theorem row_v47 (c : Dev nD) : rowEntries (N := 128) (V5 m ρ c main_v47) = entries1 (m ((c : Thread nD τ).loc main_arg8)) :=
  funext fun q => (congrFun (cast_v47 m ρ c) (ix2 0 q)).trans (OneRowMatrix.row_of_vector _ shapeCasts_S128_S1x128 q)
/-- `main_v48` when its region is entered: bias 10 as a one-row matrix. -/
theorem cast_v48 (c : Dev nD) : V5 m ρ c main_v48 = shapeCast S1x128 (m ((c : Thread nD τ).loc main_arg10)) shapeCasts_S128_S1x128 := by
  show StableHlo.after hostOps2 (W4 m ρ c) (Proc.devRef .tc main_v48) = _
  after_results_simp
  rw [at4_arg10 m ρ c]
  rfl
theorem row_v48 (c : Dev nD) : rowEntries (N := 128) (V5 m ρ c main_v48) = entries1 (m ((c : Thread nD τ).loc main_arg10)) :=
  funext fun q => (congrFun (cast_v48 m ρ c) (ix2 0 q)).trans (OneRowMatrix.row_of_vector _ shapeCasts_S128_S1x128 q)
/-- `main_v49` when its region is entered: bias 12 as a one-row matrix. -/
theorem cast_v49 (c : Dev nD) : V5 m ρ c main_v49 = shapeCast S1x64 (m ((c : Thread nD τ).loc main_arg12)) shapeCasts_S64_S1x64 := by
  show StableHlo.after hostOps2 (W4 m ρ c) (Proc.devRef .tc main_v49) = _
  after_results_simp
  rw [at4_arg12 m ρ c]
  rfl
theorem row_v49 (c : Dev nD) : rowEntries (N := 64) (V5 m ρ c main_v49) = entries1 (m ((c : Thread nD τ).loc main_arg12)) :=
  funext fun q => (congrFun (cast_v49 m ρ c) (ix2 0 q)).trans (OneRowMatrix.row_of_vector _ shapeCasts_S64_S1x64 q)

theorem mat1_arg3 (c : Dev nD) : entries (R := 128) (K := 128) (V1 m ρ c main_arg3) = entries (m ((c : Thread nD τ).loc main_arg3)) :=
  congrArg (entries (R := 128) (K := 128)) (at1_arg3 m ρ c)
theorem mat1_arg5 (c : Dev nD) : entries (R := 128) (K := 128) (V1 m ρ c main_arg5) = entries (m ((c : Thread nD τ).loc main_arg5)) :=
  congrArg (entries (R := 128) (K := 128)) (at1_arg5 m ρ c)
theorem mat3_arg3 (c : Dev nD) : entries (R := 128) (K := 128) (V3 m ρ c main_arg3) = entries (m ((c : Thread nD τ).loc main_arg3)) :=
  congrArg (entries (R := 128) (K := 128)) (at3_arg3 m ρ c)
theorem mat3_arg5 (c : Dev nD) : entries (R := 128) (K := 128) (V3 m ρ c main_arg5) = entries (m ((c : Thread nD τ).loc main_arg5)) :=
  congrArg (entries (R := 128) (K := 128)) (at3_arg5 m ρ c)
theorem mat3_arg7 (c : Dev nD) : entries (R := 128) (K := 128) (V3 m ρ c main_arg7) = entries (m ((c : Thread nD τ).loc main_arg7)) :=
  congrArg (entries (R := 128) (K := 128)) (at3_arg7 m ρ c)
theorem mat5_arg7 (c : Dev nD) : entries (R := 128) (K := 128) (V5 m ρ c main_arg7) = entries (m ((c : Thread nD τ).loc main_arg7)) :=
  congrArg (entries (R := 128) (K := 128)) (at5_arg7 m ρ c)
theorem mat5_arg9 (c : Dev nD) : entries (R := 128) (K := 128) (V5 m ρ c main_arg9) = entries (m ((c : Thread nD τ).loc main_arg9)) :=
  congrArg (entries (R := 128) (K := 128)) (at5_arg9 m ρ c)
theorem mat5_arg11 (c : Dev nD) : entries (R := 64) (K := 128) (V5 m ρ c main_arg11) = entries (m ((c : Thread nD τ).loc main_arg11)) :=
  congrArg (entries (R := 64) (K := 128)) (at5_arg11 m ρ c)

theorem in1_arg0 (c : Dev nD) : V1 m ρ c main_arg0 = m ((c : Thread nD τ).loc main_arg0) := at1_arg0 m ρ c

/-! ## Each region's output, and the aggregation between regions -/

/-- Region 0 leaves the first stage of every row of `x`. -/
theorem out0 (c : Dev nD) : W2 m ρ c (Proc.devRef .tc main_v2)
    = onRows (R := 100000) (stageA (entries (m ((c : Thread nD τ).loc main_arg3))) (entries1 (m ((c : Thread nD τ).loc main_arg4))) (entries (m ((c : Thread nD τ).loc main_arg5))) (entries1 (m ((c : Thread nD τ).loc main_arg6)))) (m ((c : Thread nD τ).loc main_arg0)) := by
  refine ((W2_arr m ρ c 5).trans (StageA.final (V1 m ρ) c)).trans ?_
  unfold StageA.whole
  rw [mat1_arg3, row_v0, mat1_arg5, row_v1, in1_arg0]

set_option maxHeartbeats 1000000 in
/-- The host stretch between regions 0 and 1 computes the mean aggregation of region 0's output. -/
theorem in3_v22 (c : Dev nD) : V3 m ρ c main_v22
    = meanAgg dims (W2 m ρ c (Proc.devRef .tc main_v2)) (m ((c : Thread nD τ).loc main_arg1)) (m ((c : Thread nD τ).loc main_arg2)) := by
  show StableHlo.after hostOps1 (W2 m ρ c) (Proc.devRef .tc main_v22) = _
  after_results_simp
  rw [at2_arg1 m ρ c, at2_arg2 m ρ c]
  rfl

/-- Region 1 leaves the second stage of every row of its input. -/
theorem out1 (c : Dev nD) : W4 m ρ c (Proc.devRef .tc main_v26)
    = onRows (R := 100000) (stageB (entries (m ((c : Thread nD τ).loc main_arg3))) (entries1 (m ((c : Thread nD τ).loc main_arg4))) (entries (m ((c : Thread nD τ).loc main_arg5))) (entries1 (m ((c : Thread nD τ).loc main_arg6)))
        (entries (m ((c : Thread nD τ).loc main_arg7))) (entries1 (m ((c : Thread nD τ).loc main_arg8)))) (V3 m ρ c main_v22) := by
  refine ((W4_arr m ρ c 7).trans (StageB.final (V3 m ρ) c)).trans ?_
  unfold StageB.whole
  rw [mat3_arg3, row_v23, mat3_arg5, row_v24, mat3_arg7, row_v25]

set_option maxHeartbeats 1000000 in
/-- The host stretch between regions 1 and 2 computes the mean aggregation of region 1's output. -/
theorem in5_v46 (c : Dev nD) : V5 m ρ c main_v46
    = meanAgg dims (W4 m ρ c (Proc.devRef .tc main_v26)) (m ((c : Thread nD τ).loc main_arg1)) (m ((c : Thread nD τ).loc main_arg2)) := by
  show StableHlo.after hostOps2 (W4 m ρ c) (Proc.devRef .tc main_v46) = _
  after_results_simp
  rw [at4_arg1 m ρ c, at4_arg2 m ρ c]
  rfl

/-- Region 2 leaves the third stage of every row of its input. -/
theorem out2 (c : Dev nD) : W6 m ρ c (Proc.devRef .tc main_v50)
    = onRows (R := 100000) (stageC (entries (m ((c : Thread nD τ).loc main_arg7))) (entries1 (m ((c : Thread nD τ).loc main_arg8))) (entries (m ((c : Thread nD τ).loc main_arg9))) (entries1 (m ((c : Thread nD τ).loc main_arg10)))
        (entries (m ((c : Thread nD τ).loc main_arg11))) (entries1 (m ((c : Thread nD τ).loc main_arg12)))) (V5 m ρ c main_v46) := by
  refine ((W6_arr m ρ c 7).trans (StageC.final (V5 m ρ) c)).trans ?_
  unfold StageC.whole
  rw [mat5_arg7, row_v47, mat5_arg9, row_v48, mat5_arg11, row_v49]

/-- The result buffer at the last boundary is the network of the launch arguments. -/
theorem result (c : Dev nD) : W6 m ρ c (Proc.devRef .tc main_v50)
    = network dims (m ((c : Thread nD τ).loc main_arg0)) (m ((c : Thread nD τ).loc main_arg1)) (m ((c : Thread nD τ).loc main_arg2))
      (entries (m ((c : Thread nD τ).loc main_arg3))) (entries1 (m ((c : Thread nD τ).loc main_arg4))) (entries (m ((c : Thread nD τ).loc main_arg5))) (entries1 (m ((c : Thread nD τ).loc main_arg6)))
      (entries (m ((c : Thread nD τ).loc main_arg7))) (entries1 (m ((c : Thread nD τ).loc main_arg8))) (entries (m ((c : Thread nD τ).loc main_arg9))) (entries1 (m ((c : Thread nD τ).loc main_arg10)))
      (entries (m ((c : Thread nD τ).loc main_arg11))) (entries1 (m ((c : Thread nD τ).loc main_arg12))) := by
  rw [out2, in5_v46, out1, in3_v22, out0]
  rfl

/-- The run of the idealized kernel: the result buffer ends at the network of the arguments, which end unchanged. -/
theorem run : θ_run defs (onTc (τ := τ) (main (F := Ideal))) ⟨m, fun _ => 0, ρ⟩ (fun r => ∀ c : Dev nD,
      r.2.mem ((c.tc : Thread nD τ).loc main_v50) = network dims (m ((c.tc : Thread nD τ).loc main_arg0)) (m ((c.tc : Thread nD τ).loc main_arg1)) (m ((c.tc : Thread nD τ).loc main_arg2))
      (entries (m ((c.tc : Thread nD τ).loc main_arg3))) (entries1 (m ((c.tc : Thread nD τ).loc main_arg4))) (entries (m ((c.tc : Thread nD τ).loc main_arg5))) (entries1 (m ((c.tc : Thread nD τ).loc main_arg6)))
      (entries (m ((c.tc : Thread nD τ).loc main_arg7))) (entries1 (m ((c.tc : Thread nD τ).loc main_arg8))) (entries (m ((c.tc : Thread nD τ).loc main_arg9))) (entries1 (m ((c.tc : Thread nD τ).loc main_arg10)))
      (entries (m ((c.tc : Thread nD τ).loc main_arg11))) (entries1 (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result m ρ c), (h c).2⟩) (Cert.KernelIdeal.Result.run m ρ)

end Cert.KernelIdeal.Whole

end
-- ==== Proof.LibDotRowsByCols.lean ====
/-
  A host matrix product read at an entry.

  On the extended reals jnp's `dot_general` of an `[M, K]` left operand and a `[K, N]` right operand (the contraction on
  the left's second axis and the right's first, no batch axis) is at entry `(p, q)` the plain sum `∑ₖ l(p, k) · r(k, q)`:
  no rounding, no order of accumulation. The dimension record is kept abstract; what is asked of it is that it contracts
  one axis of extent `K` and reads its operands at `(p, k)` and `(k, q)`, four facts a concrete record gives by
  unfolding. (The host-side companion of the same statement for a `tpu.matmul` into a zero accumulator.) Imports only the
  library.
-/
import Idealize.ShloMosaic.PureOps.Ideal.Laws
import Idealize.ShloMosaic.Lib.ValueIdx

namespace Idealize.ShloMosaic.DotRowsByCols

open Idealize.ShloMosaic Idealize.ShloMosaic.ValueIdx

/-- `Host.dotGeneral D prec l r` at `(p, q)` is `∑ k, l (p, k) * r (k, q)`. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  refine (Ideal.dotGeneral_apply D prec .single l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.DotRowsByCols
-- ==== Proof.LibRowBroadcast.lean ====
/-
  A vector broadcast over the rows of a matrix, and a scalar over all of it, read at an entry.

  jnp adds a bias vector `b` of length `n` to an `[a, n]` matrix by two `broadcast_in_dim`s: `[n] -> [1, n]` along axis 1,
  then `[1, n] -> [a, n]` along axes (0, 1). Read at `(p, q)` the result is `b q`, whatever the row `p`. A scalar
  broadcast to any shape reads, at every index, the scalar. Any extents; imports only the library.
-/
import Idealize.ShloMosaic.Lib.Pipeline.Value
import Idealize.ShloMosaic.Lib.ValueIdx

namespace Idealize.ShloMosaic.RowBroadcast

open Idealize.ShloMosaic Idealize.ShloMosaic.ValueIdx

variable {α : Type}

/-- `[n] -> [1, n] -> [a, n]` read at `(p, q)` is the vector at `q`. -/
theorem row_apply {a n : ℕ} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1])
    (p : Fin a) (q : Fin n) :
    broadcastInDim ⟨2, ![a, n]⟩ ![0, 1] h2 (broadcastInDim ⟨2, ![1, n]⟩ ![1] h1 x) (ix2 p q) = x (ix1 q) := by
  refine (broadcastInDim_apply ![0, 1] h2 _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply ![1] h1 x (ix2 (0 : Fin 1) q) (ix1 q) fun ax => ?_
    match ax with
    | ⟨0, _⟩ =>
      show q.val = if n = 1 then 0 else q.val
      split
      · have := q.isLt; omega
      · rfl

/-- A scalar broadcast to any shape reads the scalar at every index. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

end Idealize.ShloMosaic.RowBroadcast
-- ==== Proof.RefNetwork.lean ====
/-
  The reference program's result is the network.

  The reference writes a dense layer as jnp does: the product of the whole 100000-row matrix with the transposed weight
  matrix (a `dot_general` contracting the second axis of the left with the first of the right), plus the bias broadcast
  first to a one-row matrix and then down the rows; a rectifier is the maximum with a broadcast zero. On the extended
  reals the entry (p, q) of a layer is the dense layer of row p at q, so each run of layers and rectifiers between two
  aggregations is a stage applied to every row, and the aggregations are the shared function of `MeanAgg`.
-/
import proofs.«161982_j53283364274285_1_alg».proof.Proof.Gen.ReferenceIdeal.Read
import proofs.«161982_j53283364274285_1_alg».proof.Proof.Network
import proofs.«161982_j53283364274285_1_alg».proof.Proof.LibDotRowsByCols
import proofs.«161982_j53283364274285_1_alg».proof.Proof.LibRowBroadcast
import proofs.«161982_j53283364274285_1_alg».proof.Proof.LibTransposedEntry
import Idealize.ShloMosaic.Lib.ValueIdx

noncomputable section

namespace Cert.ReferenceIdeal.RefValue

open Cert.ReferenceIdeal Cert.ReferenceIdeal.Gen Cert.ReferenceIdeal.Read Cert.DenseRows Cert.MeanAgg Cert.Network
open Idealize.ShloMosaic Idealize.ShloMosaic.ValueIdx

/-- The reference's dimension records and layout witnesses for the aggregation. -/
def dims : Dims :=
  ⟨gather_S100000x128_S800000x1_S800000x128_1_0_n_n_0_1_1128, scatter_S100000x128_S800000x1_S800000x128_1_0_0_1,
    scatter_S100000_S800000x1_S800000_n_0_0_1, bcast_S_S800000, bcast_S800000_S800000x1_0, bcast_S_S100000x128, bcast_S_S100000,
    bcast_S100000_S100000x1_0, bcast_S100000x1_S100000x128_0_1⟩

/-- A dense layer with 128 outputs as the reference writes it. -/
def layer (x : FVec Ideal S100000x128 .f32) (w : FVec Ideal S128x128 .f32) (b : FVec Ideal S128 .f32) : FVec Ideal S100000x128 .f32 :=
  addf (Host.dotGeneral dot_S100000x128_S128x128_S100000x128_1_0_0_1_n_n none x (transpose S128x128 [1, 0] w transposes_S128x128_S128x128_1_0))
    (broadcastInDim S100000x128 ![0, 1] bcast_S1x128_S100000x128_0_1 (broadcastInDim S1x128 ![1] bcast_S128_S1x128_1 b))

/-- The last dense layer (64 outputs) as the reference writes it. -/
def layer64 (x : FVec Ideal S100000x128 .f32) (w : FVec Ideal S64x128 .f32) (b : FVec Ideal S64 .f32) : FVec Ideal S100000x64 .f32 :=
  addf (Host.dotGeneral dot_S100000x128_S128x64_S100000x64_1_0_0_1_n_n none x (transpose S128x64 [1, 0] w transposes_S64x128_S128x64_1_0))
    (broadcastInDim S100000x64 ![0, 1] bcast_S1x64_S100000x64_0_1 (broadcastInDim S1x64 ![1] bcast_S64_S1x64_1 b))

/-- The rectifier as the reference writes it. -/
def rect (y : FVec Ideal S100000x128 .f32) : FVec Ideal S100000x128 .f32 :=
  maximumf y (broadcastInDim S100000x128 ![] bcast_S_S100000x128 (constant (F := Ideal) S_ .f32 0x00000000#32))

theorem layer_apply (x : FVec Ideal S100000x128 .f32) (w : FVec Ideal S128x128 .f32) (b : FVec Ideal S128 .f32)
    (p : Fin 100000) (q : Fin 128) : layer x w b (ix2 p q) = lin (entries w) (entries1 b) (entries x p) q := by
  unfold layer
  rw [addf_apply, RowBroadcast.row_apply,
    DotRowsByCols.dotGeneral_apply dot_S100000x128_S128x128_S100000x128_1_0_0_1_n_n rfl rfl (fun _ _ => rfl) (fun _ _ => rfl)
      (fun _ _ => rfl) (fun _ _ => rfl)]
  unfold lin entries entries1
  refine congrArg (· + b (ix1 q)) (Finset.sum_congr rfl fun k _ => ?_)
  rw [TransposedEntry.transposed_apply]

theorem layer64_apply (x : FVec Ideal S100000x128 .f32) (w : FVec Ideal S64x128 .f32) (b : FVec Ideal S64 .f32)
    (p : Fin 100000) (q : Fin 64) : layer64 x w b (ix2 p q) = lin (entries w) (entries1 b) (entries x p) q := by
  unfold layer64
  rw [addf_apply, RowBroadcast.row_apply,
    DotRowsByCols.dotGeneral_apply dot_S100000x128_S128x64_S100000x64_1_0_0_1_n_n rfl rfl (fun _ _ => rfl) (fun _ _ => rfl)
      (fun _ _ => rfl) (fun _ _ => rfl)]
  unfold lin entries entries1
  refine congrArg (· + b (ix1 q)) (Finset.sum_congr rfl fun k _ => ?_)
  rw [TransposedEntry.transposed_apply]

theorem rect_apply (y : FVec Ideal S100000x128 .f32) (p : Fin 100000) (q : Fin 128) :
    rect y (ix2 p q) = max (y (ix2 p q)) zero32 := by
  unfold rect
  rw [maximumf_apply, RowBroadcast.scalar_apply]
  rfl

/-- Row p of a layer is the dense layer of row p. -/
theorem layer_row (x : FVec Ideal S100000x128 .f32) (w : FVec Ideal S128x128 .f32) (b : FVec Ideal S128 .f32) (p : Fin 100000) :
    entries (layer x w b) p = lin (entries w) (entries1 b) (entries x p) :=
  funext fun q => layer_apply x w b p q

/-- Row p of a rectified array is the rectifier of row p. -/
theorem rect_row (y : FVec Ideal S100000x128 .f32) (p : Fin 100000) : entries (rect y) p = relu (entries y p) :=
  funext fun q => rect_apply y p q

theorem stageA_eq (X : FVec Ideal S100000x128 .f32) (w1 : FVec Ideal S128x128 .f32) (b1 : FVec Ideal S128 .f32)
    (w2 : FVec Ideal S128x128 .f32) (b2 : FVec Ideal S128 .f32) :
    layer (rect (layer X w1 b1)) w2 b2
      = onRows (R := 100000) (stageA (entries w1) (entries1 b1) (entries w2) (entries1 b2)) X := by
  refine ext2 _ _ fun p q => ?_
  rw [onRows_apply, layer_apply, rect_row, layer_row]
  rfl

theorem stageB_eq (X : FVec Ideal S100000x128 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32) :
    rect (layer (layer (rect (layer X w1 b1)) w2 b2) w3 b3)
      = onRows (R := 100000) (stageB (entries w1) (entries1 b1) (entries w2) (entries1 b2) (entries w3) (entries1 b3)) X := by
  refine ext2 _ _ fun p q => ?_
  rw [onRows_apply]
  refine (congrFun (rect_row _ p) q).trans ?_
  rw [layer_row, layer_row, rect_row, layer_row]
  rfl

theorem stageC_eq (X : FVec Ideal S100000x128 .f32) (w3 : FVec Ideal S128x128 .f32) (b3 : FVec Ideal S128 .f32)
    (wo1 : FVec Ideal S128x128 .f32) (bo1 : FVec Ideal S128 .f32) (wo2 : FVec Ideal S64x128 .f32) (bo2 : FVec Ideal S64 .f32) :
    layer64 (rect (layer (rect (layer X w3 b3)) wo1 bo1)) wo2 bo2
      = onRows (R := 100000) (stageC (entries w3) (entries1 b3) (entries wo1) (entries1 bo1) (entries wo2) (entries1 bo2)) X := by
  refine ext2 _ _ fun p q => ?_
  rw [onRows_apply, layer64_apply, rect_row, layer_row, rect_row, layer_row]
  rfl

/-! ## The reference's stages, read off its operations -/

theorem v10_eq (x0 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v10 (F := Ideal) x0 x3 x4 x5 x6 = layer (rect (layer x0 x3 x4)) x5 x6 := rfl

theorem v30_eq (x0 : (⟨S100000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v30 (F := Ideal) x0 x1 x2 x3 x4 x5 x6 = meanAgg dims (val_main_v10 (F := Ideal) x0 x3 x4 x5 x6) x1 x2 := rfl

theorem v47_eq (x0 : (⟨S100000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v47 (F := Ideal) x0 x1 x2 x3 x4 x5 x6 x7 x8
      = rect (layer (layer (rect (layer (val_main_v30 (F := Ideal) x0 x1 x2 x3 x4 x5 x6) x3 x4)) x5 x6) x7 x8) := rfl

theorem v67_eq (x0 : (⟨S100000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v67 (F := Ideal) x0 x1 x2 x3 x4 x5 x6 x7 x8 = meanAgg dims (val_main_v47 (F := Ideal) x0 x1 x2 x3 x4 x5 x6 x7 x8) x1 x2 := rfl

theorem v84_eq (x0 : (⟨S100000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) :
    val_main_v84 (F := Ideal) x0 x1 x2 x3 x4 x5 x6 x7 x8 x9 x10 x11 x12
      = layer64 (rect (layer (rect (layer (val_main_v67 (F := Ideal) x0 x1 x2 x3 x4 x5 x6 x7 x8) x7 x8)) x9 x10)) x11 x12 := rfl

/-- The reference's result is the network of its arguments. -/
theorem result_eq (x0 : (⟨S100000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) :
    val_main_v84 (F := Ideal) x0 x1 x2 x3 x4 x5 x6 x7 x8 x9 x10 x11 x12
      = network dims x0 x1 x2 (entries x3) (entries1 x4) (entries x5) (entries1 x6) (entries x7) (entries1 x8)
          (entries x9) (entries1 x10) (entries x11) (entries1 x12) := by
  rw [v84_eq, stageC_eq, v67_eq, v47_eq, stageB_eq, v30_eq, v10_eq, stageA_eq]
  rfl

end Cert.ReferenceIdeal.RefValue

end
-- ==== Proof.lean ====
/-
  A three-stage graph network with mean aggregation, computed band by band on the TensorCore, against its jnp reference.

  Both programs compute, on the extended reals, the same function of the thirteen arguments (`Network.network`): the
  first dense stage on every row of `x`, the mean aggregation over incoming edges, the second dense stage on every row,
  the aggregation again, the third dense stage on every row. The kernel runs each stage as a pipelined region over 20
  bands of 5000 rows; a stage acts on each row separately, so the band a grid point writes back is that band of the
  stage of the whole matrix, and the 20 bands tile the output (`RegionA/B/C`); the host operations between the regions
  are the aggregation, the same operations as the reference's (`MeanAgg`), never opened. A change of float format is
  the identity on the extended reals and a matrix product into a zero accumulator is the plain sum of products, on both
  sides (`BodyRows`, `RefNetwork`); no law needing finiteness is used, so the precondition is never opened.
  The three frames are the programs' runs with the results dropped; the idealization ledger is empty.
-/
import proofs.«161982_j53283364274285_1_alg».proof.Defs
import proofs.«161982_j53283364274285_1_alg».proof.Proof.Gen.Kernel
import proofs.«161982_j53283364274285_1_alg».proof.Proof.Gen.KernelIdeal
import proofs.«161982_j53283364274285_1_alg».proof.Proof.Gen.ReferenceIdeal
import proofs.«161982_j53283364274285_1_alg».proof.Proof.Gen.Pre_finite_inputs
import proofs.«161982_j53283364274285_1_alg».proof.Proof.KernelFrameP
import proofs.«161982_j53283364274285_1_alg».proof.Proof.KernelNetwork
import proofs.«161982_j53283364274285_1_alg».proof.Proof.RefNetwork
import Idealize.ShloMosaic.Adequacy
import Idealize.ShloMosaic.Init

noncomputable section

namespace Cert.Proof

open Idealize.ShloMosaic Idealize.SL.Sem Cert.DenseRows Cert.Network

/-- The two programs' aggregations carry the same dimension records and layout witnesses. -/
theorem dims_eq : Cert.ReferenceIdeal.RefValue.dims = Cert.KernelIdeal.Whole.dims := rfl

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨fun c => network Cert.KernelIdeal.Whole.dims (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (entries (m ((c.tc : Thread Cert.KernelIdeal.nD Cert.KernelIdeal.τ).loc Cert.KernelIdeal.main_arg3))) (entries1 (m ((c.tc : Thread Cert.KernelIdeal.nD Cert.KernelIdeal.τ).loc Cert.KernelIdeal.main_arg4))) (entries (m ((c.tc : Thread Cert.KernelIdeal.nD Cert.KernelIdeal.τ).loc Cert.KernelIdeal.main_arg5))) (entries1 (m ((c.tc : Thread Cert.KernelIdeal.nD Cert.KernelIdeal.τ).loc Cert.KernelIdeal.main_arg6)))
      (entries (m ((c.tc : Thread Cert.KernelIdeal.nD Cert.KernelIdeal.τ).loc Cert.KernelIdeal.main_arg7))) (entries1 (m ((c.tc : Thread Cert.KernelIdeal.nD Cert.KernelIdeal.τ).loc Cert.KernelIdeal.main_arg8))) (entries (m ((c.tc : Thread Cert.KernelIdeal.nD Cert.KernelIdeal.τ).loc Cert.KernelIdeal.main_arg9))) (entries1 (m ((c.tc : Thread Cert.KernelIdeal.nD Cert.KernelIdeal.τ).loc Cert.KernelIdeal.main_arg10)))
      (entries (m ((c.tc : Thread Cert.KernelIdeal.nD Cert.KernelIdeal.τ).loc Cert.KernelIdeal.main_arg11))) (entries1 (m ((c.tc : Thread Cert.KernelIdeal.nD Cert.KernelIdeal.τ).loc Cert.KernelIdeal.main_arg12))), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v84_eq, Cert.ReferenceIdeal.RefValue.result_eq, dims_eq,
    h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
